-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x1024 : Shape := ⟨2, ![32, 1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel

variable [Facts]

def fn {F : FTy → Type} [FloatOps F] (main_arg0 : FVec F S32x512x1024 .f32) (main_arg1 : IVec S32x1024 1) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  main_v3
-- ==== Kernel.lean ====
abbrev S32x512x1024 : Shape := ⟨3, ![32, 512, 1024]⟩
abbrev S32x1024 : Shape := ⟨2, ![32, 1024]⟩
abbrev S32x1x1024 : Shape := ⟨3, ![32, 1, 1024]⟩
abbrev S1x1 : Shape := ⟨2, ![1, 1]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S32x512x1024, .f32⟩
  | .hbm, ⟨1, _⟩ => ⟨S32x1024, .i1⟩
  | .hbm, ⟨2, _⟩ => ⟨S32x1024, .f32⟩
  | .hbm, ⟨3, _⟩ => ⟨S32x1x1024, .f32⟩
  | .hbm, ⟨4, _⟩ => ⟨S1x1, .f32⟩
  | .hbm, ⟨5, _⟩ => ⟨S_, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1, .f32⟩
  | .local _ .vmem, ⟨5, _⟩ => ⟨S1x1, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v38 : BitVec 1 := Scalar.cmpi .eq arg0 c31_i32
  let v39 : BitVec 32 := Scalar.extui v38
  let c0_i32_16 : BitVec 32 := 0#32
  let v40 : BitVec 1 := Scalar.cmpi .ne v39 c0_i32_16
  v40

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S32x1024_S32x1x1024_0_2 : S32x1024.BroadcastsInDim S32x1x1024 (![0, 2] : Fin 2 → Fin S32x1x1024.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  bitsLt_bf16_f32 : FTy.bits .bf16 < FTy.bits .f32
  reduces_S512x1024_S512 : S512x1024.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S32x1x1024.size a
  hwx0_1 : ∀ i : grid0.Coords, EltTy.bits .f32 = 32 ∨ (Rect.block (s := S32x1x1024) S1x1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x512x1024 : Shape := ⟨3, ![32, 512, 1024]⟩
abbrev S32x1024 : Shape := ⟨2, ![32, 1024]⟩
abbrev S32x1x1024 : Shape := ⟨3, ![32, 1, 1024]⟩
abbrev S32x512x512 : Shape := ⟨3, ![32, 512, 512]⟩
abbrev S512 : Shape := ⟨1, ![512]⟩
abbrev S_ : Shape := ⟨0, ![]⟩
abbrev S512x1 : Shape := ⟨2, ![512, 1]⟩
abbrev S512x2 : Shape := ⟨2, ![512, 2]⟩
abbrev S32x512 : Shape := ⟨2, ![32, 512]⟩
abbrev S32x512x1 : Shape := ⟨3, ![32, 512, 1]⟩
abbrev S32x1x512 : Shape := ⟨3, ![32, 1, 512]⟩
abbrev S512x512 : Shape := ⟨2, ![512, 512]⟩
abbrev S1x512x512 : Shape := ⟨3, ![1, 512, 512]⟩

abbrev nBuf : Space → Nat
  | .hbm => 71
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x1024, .i1⟩
  | .hbm, ⟨2, _⟩ => ⟨S32x1x1024, .i1⟩
  | .hbm, ⟨3, _⟩ => ⟨S32x1x1024, .f32⟩
  | .hbm, ⟨4, _⟩ => ⟨S32x512x1024, .f32⟩
  | .hbm, ⟨5, _⟩ => ⟨S32x512x1024, .f32⟩
  | .hbm, ⟨6, _⟩ => ⟨S32x512x512, .f32⟩
  | .hbm, ⟨7, _⟩ => ⟨S512, .i32⟩
  | .hbm, ⟨8, _⟩ => ⟨S512, .i32⟩
  | .hbm, ⟨9, _⟩ => ⟨S_, .i32⟩
  | .hbm, ⟨10, _⟩ => ⟨S512, .i32⟩
  | .hbm, ⟨11, _⟩ => ⟨S512, .i1⟩
  | .hbm, ⟨12, _⟩ => ⟨S_, .i32⟩
  | .hbm, ⟨13, _⟩ => ⟨S512, .i32⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S512x1, .i32⟩
  | .hbm, ⟨25, _⟩ => ⟨S512x2, .i32⟩
  | .hbm, ⟨26, _⟩ => ⟨S32x512, .f32⟩
  | .hbm, ⟨27, _⟩ => ⟨S_, .f32⟩
  | .hbm, ⟨28, _⟩ => ⟨S32x512, .f32⟩
  | .hbm, ⟨29, _⟩ => ⟨S32x512, .f32⟩
  | .hbm, ⟨30, _⟩ => ⟨S32x512, .f32⟩
  | .hbm, ⟨31, _⟩ => ⟨S_, .f32⟩
  | .hbm, ⟨32, _⟩ => ⟨S32x512, .f32⟩
  | .hbm, ⟨33, _⟩ => ⟨S32x512, .f32⟩
  | .hbm, ⟨34, _⟩ => ⟨S32x512x1, .f32⟩
  | .hbm, ⟨35, _⟩ => ⟨S32x1x512, .f32⟩
  | .hbm, ⟨36, _⟩ => ⟨S32x512x512, .f32⟩
  | .hbm, ⟨37, _⟩ => ⟨S32x512x512, .f32⟩
  | .hbm, ⟨38, _⟩ => ⟨S32x512x512, .f32⟩
  | .hbm, ⟨39, _⟩ => ⟨S32x512x512, .f32⟩
  | .hbm, ⟨40, _⟩ => ⟨S_, .i1⟩
  | .hbm, ⟨41, _⟩ => ⟨S512x512, .i1⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i32⟩
  | .hbm, ⟨46, _⟩ => ⟨S512x512, .i32⟩
  | .hbm, ⟨47, _⟩ => ⟨S512x512, .i1⟩
  | .hbm, ⟨48, _⟩ => ⟨S_, .i1⟩
  | .hbm, ⟨49, _⟩ => ⟨S512x512, .i1⟩
  | .hbm, ⟨50, _⟩ => ⟨S512x512, .i1⟩
  | .hbm, ⟨51, _⟩ => ⟨S1x512x512, .i1⟩
  | .hbm, ⟨52, _⟩ => ⟨S_, .f32⟩
  | .hbm, ⟨53, _⟩ => ⟨S_, .f32⟩
  | .hbm, ⟨54, _⟩ => ⟨S32x512x512, .i1⟩
  | .hbm, ⟨55, _⟩ => ⟨S32x512x512, .f32⟩
  | .hbm, ⟨56, _⟩ => ⟨S32x512x512, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_v7 : Ref sig .tc := ⟨.hbm, 17, rfl⟩
abbrev main_call0_v8 : Ref sig .tc := ⟨.hbm, 18, rfl⟩
abbrev main_call0_c_2 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_call1_v0 : Ref sig .tc := ⟨.hbm, 42, rfl⟩
abbrev main_call1_c : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_c_0 : Ref sig .tc := ⟨.hbm, 48, rfl⟩
abbrev main_call1_v5 : Ref sig .tc := ⟨.hbm, 49, rfl⟩
abbrev main_v18 : Ref sig .tc := ⟨.hbm, 50, rfl⟩
abbrev main_v19 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_cst_2 : Ref sig .tc := ⟨.hbm, 57, rfl⟩
abbrev main_v21 : Ref sig .tc := ⟨.hbm, 58, rfl⟩
abbrev main_cst_3 : Ref sig .tc := ⟨.hbm, 59, rfl⟩
abbrev main_v22 : Ref sig .tc := ⟨.hbm, 60, rfl⟩
abbrev main_cst_4 : Ref sig .tc := ⟨.hbm, 61, rfl⟩
abbrev main_v23 : Ref sig .tc := ⟨.hbm, 62, rfl⟩
abbrev main_cst_5 : Ref sig .tc := ⟨.hbm, 63, rfl⟩
abbrev main_v24 : Ref sig .tc := ⟨.hbm, 64, rfl⟩
abbrev main_cst_6 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_7 : Ref sig .tc := ⟨.hbm, 69, rfl⟩
abbrev main_v28 : Ref sig .tc := ⟨.hbm, 70, rfl⟩

abbrev nD : Nat := 1
abbrev τ : Topo := Topo.v7x

variable {F : FTy → Type} [FloatOps F]

class Facts₀ : Prop where
  bcast_S32x1024_S32x1x1024_0_2 : S32x1024.BroadcastsInDim S32x1x1024 (![0, 2] : Fin 2 → Fin S32x1x1024.rank)
  bcast_S32x1x1024_S32x512x1024_0_1_2 : S32x1x1024.BroadcastsInDim S32x512x1024 (![0, 1, 2] : Fin 3 → Fin S32x512x1024.rank)
  bcast_S_S512 : S_.BroadcastsInDim S512 (![] : Fin 0 → Fin S512.rank)
  bcast_S512_S512x1_0 : S512.BroadcastsInDim S512x1 (![0] : Fin 1 → Fin S512x1.rank)
  concatenates_S512x1_S512x1_S512x2_d1 : Shape.Concatenates [S512x1, S512x1] S512x2 1
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512_S32x1x512_0_2 : S32x512.BroadcastsInDim S32x1x512 (![0, 2] : Fin 2 → Fin S32x1x512.rank)
  bcast_S32x512x1_S32x512x512_0_1_2 : S32x512x1.BroadcastsInDim S32x512x512 (![0, 1, 2] : Fin 3 → Fin S32x512x512.rank)
  bcast_S32x1x512_S32x512x512_0_1_2 : S32x1x512.BroadcastsInDim S32x512x512 (![0, 1, 2] : Fin 3 → Fin S32x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S32x512x512_0_1_2 : S1x512x512.BroadcastsInDim S32x512x512 (![0, 1, 2] : Fin 3 → Fin S32x512x512.rank)
  bcast_S_S32x512x512 : S_.BroadcastsInDim S32x512x512 (![] : Fin 0 → Fin S32x512x512.rank)
  reducesTo_S32x512x512_S_d0_1_2 : S32x512x512.ReducesTo [0, 1, 2] S_
  h_S_ : 0 < S_.numel
  dot_S32x512x1024_S32x512x1024_S32x512x512_2_2_1_1_0_0_wf : DotDims.WF S32x512x1024 S32x512x1024 S32x512x512 [2] [2] [1] [1] [0] [0]
  gather_S32x512x512_S512x2_S32x512_0_12_n_n_12_1_3211_wf : GatherDims.WF S32x512x512 S512x2 S32x512 [0] [1, 2] [] [1, 2] [] 1 ![32, 1, 1]

variable [Facts₀]

def dot_S32x512x1024_S32x512x1024_S32x512x512_2_2_1_1_0_0 : DotDims S32x512x1024 S32x512x1024 S32x512x512 where
  lhsContracting := [2]
  rhsContracting := [2]
  lhsNonContracting := [1]
  rhsNonContracting := [1]
  lhsBatch := [0]
  rhsBatch := [0]
  wf := dot_S32x512x1024_S32x512x1024_S32x512x512_2_2_1_1_0_0_wf
def gather_S32x512x512_S512x2_S32x512_0_12_n_n_12_1_3211 : GatherDims S32x512x512 S512x2 S32x512 where
  offsetDims := [0]
  collapsedSliceDims := [1, 2]
  operandBatchingDims := []
  startIndicesBatchingDims := []
  startIndexMap := [1, 2]
  indexVectorDim := 1
  sliceSizes := ![32, 1, 1]
  wf := gather_S32x512x512_S512x2_S32x512_0_12_n_n_12_1_3211_wf

class Facts : Prop extends Facts₀ where

variable [Facts]
-- ==== Proof.Pieces.lean ====
/-
  What each control case of the body leaves behind, as values of the blocks it was given.

  At the first grid point the body resets the carried accumulator to the zero block, reads it back, and stores
  "accumulator + this block's total": it leaves the total added to the zero block. At every later point it
  stores the same sum over what the previous point left. At the last point it then reads the accumulator back
  and stores the closing formula of it into the output block. Each of these is one covering store of a 1 × 1
  block, so what a buffer holds afterwards is that store's payload, and the loads through the whole staging
  memrefs read the blocks themselves.
-/
import proofs.«127571_j74423193305271_1_alg».proof.Proof.Gen.KernelIdeal.Frame
import Idealize.ShloMosaic.Lib.Pipeline.Value
import Idealize.ShloMosaic.Lib.Tactic

noncomputable section

namespace Cert.CosSim.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator the previous point left, plus this block's total. -/
theorem scratch_B (c : Dev nD) (i : grid0.Coords) (a1 : Memref sig .tc .vmem S1x512x1024 .f32) (h1 : a1.IsWhole)
    (a2 : Memref sig .tc .vmem S1x1x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S1x512x1024 .f32) (x1 : Vec F S1x1x1024 .f32) (xs0 : Vec F S1x1 .f32) :
    sout0_B_0 c i a1 h1 a2 h2 a3 h3 a4 h4 hc0 hc1 x0 x1 xs0 = k0_pay3 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz2]
  simp only [View.readAt_eq_ld, h1.read_unread, h2.read_unread, h4.read_unread,
    View.ld_unit_zero (S := S1x512x1024) hz3, View.ld_unit_zero (S := S1x1x1024) hz3, View.ld_unit_zero (S := S1x1) hz2]

/-- The last point leaves the same sum in the accumulator … -/
theorem scratch_C (c : Dev nD) (i : grid0.Coords) (a1 : Memref sig .tc .vmem S1x512x1024 .f32) (h1 : a1.IsWhole)
    (a2 : Memref sig .tc .vmem S1x1x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1x512x1024 .f32) (x1 : Vec F S1x1x1024 .f32) (xs0 : Vec F S1x1 .f32) :
    sout0_C_0 c i a1 h1 a2 h2 a3 h3 a4 h4 hc0 hc1 x0 x1 xs0 = k0_pay3 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread,
    View.ld_unit_zero (S := S1x512x1024) hz3, View.ld_unit_zero (S := S1x1x1024) hz3, View.ld_unit_zero (S := S1x1) hz2]

/-- … and the closing formula of that sum in the output block. -/
theorem out_C (c : Dev nD) (i : grid0.Coords) (a1 : Memref sig .tc .vmem S1x512x1024 .f32) (h1 : a1.IsWhole)
    (a2 : Memref sig .tc .vmem S1x1x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S1x512x1024 .f32) (x1 : Vec F S1x1x1024 .f32) (xs0 : Vec F S1x1 .f32) :
    out0_C_2 c i a1 h1 a2 h2 a3 h3 a4 h4 hc0 hc1 x0 x1 xs0 = k0_pay1 (k0_pay3 x0 x1 xs0) := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread,
    View.ld_unit_zero (S := S1x512x1024) hz3, View.ld_unit_zero (S := S1x1x1024) hz3, View.ld_unit_zero (S := S1x1) hz2]

/-- The first point: the reset block read back, plus this block's total. -/
theorem scratch_A (c : Dev nD) (i : grid0.Coords) (a1 : Memref sig .tc .vmem S1x512x1024 .f32) (h1 : a1.IsWhole)
    (a2 : Memref sig .tc .vmem S1x1x1024 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S1x512x1024 .f32) (x1 : Vec F S1x1x1024 .f32) :
    sout0_A_0 c i a1 h1 a2 h2 a3 h3 a4 h4 hc0 hc1 x0 x1 = k0_pay3 x0 x1 (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread,
    View.ld_unit_zero (S := S1x512x1024) hz3, View.ld_unit_zero (S := S1x1x1024) hz3]

end Cert.CosSim.Pieces

end
-- ==== Proof.Spec.lean ====
/-
  The pairwise cosine-similarity loss as ONE function of the two argument arrays, over the extended reals.

  For a batch entry the masked feature matrix is X[t, d] = x[b, t, d] · mask[b, d]. Its Gram matrix is
  gram X t u = ∑ d, X t d · X u d; the row norm is the square root of the diagonal entry, clamped below by the
  small constant; a pair (t, u) with u > t contributes gram X t u / (norm t · norm u), every other pair
  contributes the zero; the batch entry's sum is the double sum over pairs, the total is the sum over the
  32 batch entries, and the loss is -log (1 - ½ (total / count + 1)) · β.

  Every float literal stays the extended real its word denotes: the same words appear on both programs, so
  none is ever evaluated except the zero, which is the additive unit.

  Also here: the running sum "zero, plus the first entry, plus the second, …" is the finite sum of the entries
  (only associativity and the unit law of + on the extended reals are used, so no finiteness is needed), and a
  sum over a rank-3 index set is the triple sum over its coordinates.
-/
import Idealize.ShloMosaic.PureOps.Ideal
import Idealize.ShloMosaic.PureOps.Ideal.Laws
import Idealize.ShloMosaic.Lib.ValueIdx

noncomputable section

open scoped BigOperators

namespace Cert.CosSim

open Idealize.ShloMosaic Idealize.ShloMosaic.ValueIdx

/-- The zero word's value. -/
abbrev z0 : EReal := Ideal.ofBits .f32 0x00000000#32
/-- The lower clamp of a row norm. -/
abbrev eps : EReal := Ideal.ofBits .f32 0x322BCC77#32
/-- The number of strictly-upper pairs over all batch entries, 32 · 512 · 511 / 2, as its float word. -/
abbrev cnt : EReal := Ideal.ofBits .f32 0x4A7F8000#32
abbrev one : EReal := Ideal.ofBits .f32 0x3F800000#32
abbrev half : EReal := Ideal.ofBits .f32 0x3F000000#32
abbrev beta : EReal := Ideal.ofBits .f32 0x3DCCCCCD#32

/-- "column u is strictly right of row t", as the one-bit word of the signed comparison of the two coordinates. -/
def upper (t u : Fin 512) : BitVec 1 := IntOp.cmpi .sgt (BitVec.ofNat 32 u.val) (BitVec.ofNat 32 t.val)

/-- The Gram matrix of a 512 × 1024 feature matrix. -/
def gram (X : Fin 512 → Fin 1024 → EReal) (t u : Fin 512) : EReal := ∑ d : Fin 1024, X t d * X u d

/-- A row's norm: the square root of the Gram diagonal (clamped at zero first), clamped below by `eps`. -/
def nrm (X : Fin 512 → Fin 1024 → EReal) (t : Fin 512) : EReal := max (Ideal.sqrt (max (gram X t t) z0)) eps

/-- One pair's contribution: the cosine similarity on the strict upper triangle, the zero elsewhere. -/
def term (X : Fin 512 → Fin 1024 → EReal) (t u : Fin 512) : EReal :=
  Scalar.select (upper t u) (Ideal.div (gram X t u) (nrm X t * nrm X u)) z0

/-- One batch entry's sum over all pairs. -/
def bsum (X : Fin 512 → Fin 1024 → EReal) : EReal := ∑ t : Fin 512, ∑ u : Fin 512, term X t u

/-- From the total to the loss. -/
def closing (T : EReal) : EReal := -(Ideal.log (one - half * (Ideal.div T cnt + one))) * beta

/-- The masked features of batch entry `b`. -/
def feat (x : (⟨3, ![32, 512, 1024]⟩ : Shape).Idx → EReal) (mk : (⟨2, ![32, 1024]⟩ : Shape).Idx → BitVec 1)
    (b : Fin 32) (t : Fin 512) (d : Fin 1024) : EReal :=
  x (ix3 b t d) * (((mk (ix2 b d)).toNat : ℝ) : EReal)

/-- The loss, as one function of the two argument arrays. -/
def loss (x : (⟨3, ![32, 512, 1024]⟩ : Shape).Idx → EReal) (mk : (⟨2, ![32, 1024]⟩ : Shape).Idx → BitVec 1) : EReal :=
  closing (∑ b : Fin 32, bsum (feat x mk b))

/-! ## The running sum is the sum -/

/-- The accumulator after entry `n`: the zero plus the first entry, then one entry more at a time. -/
def running (S : ℕ → EReal) : ℕ → EReal
  | 0 => z0 + S 0
  | n + 1 => running S n + S (n + 1)

theorem running_eq_sum (S : ℕ → EReal) (n : ℕ) : running S n = ∑ b ∈ Finset.range (n + 1), S b := by
  induction n with
  | zero => simp [running, z0, Ideal.ofBits_zero_f32]
  | succ n ih => rw [running, ih, Finset.sum_range_succ (n := n + 1)]

/-- After the last of 32 entries the accumulator holds the sum over all of them. -/
theorem running_last (S : ℕ → EReal) : running S 31 = ∑ b : Fin 32, S b.val := by
  rw [running_eq_sum, Finset.sum_range]

/-! ## A rank-3 index set is the product of its coordinate ranges -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.CosSim

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Payload.lean ====
/-
  What the kernel body computes from one batch entry's blocks, at the extended reals.

  The body multiplies the 512 × 1024 feature block by the 1 × 1024 mask row (the masked features X), forms
  the Gram matrix X Xᵀ by one matrix product into a zero accumulator, takes each row's norm from the row sum
  of X ∘ X — which is the Gram diagonal, the same sum of the same products —, divides the Gram matrix by the
  outer product of the norms, keeps the strict upper triangle, sums the rows and then the column of row sums,
  and adds the result to the accumulator it carries. A change of float format is the identity here, a lane sum
  and a sublane sum are plain finite sums, so the scalar the body adds is exactly `bsum X`.

  The stages are named one by one (the masked block, the Gram matrix, the norms, the similarities, the
  triangle, the total) and each is read at an index given by its coordinates; the payloads are these stages
  composed, by definitional unfolding.
-/
import proofs.«127571_j74423193305271_1_alg».proof.Proof.Gen.KernelIdeal.Skeleton
import proofs.«127571_j74423193305271_1_alg».proof.Proof.Spec
import proofs.«127571_j74423193305271_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.CosSim.Payload

open Cert.KernelIdeal Cert.KernelIdeal.Gen Idealize.ShloMosaic Idealize.ShloMosaic.ValueIdx Cert.CosSim Cert.LibKeepdims

/-- The matrix product's dimension numbers: contract axis 1 of both operands. -/
abbrev KD : DotDims S512x1024 S512x1024 S512x512 := dot_S512x1024_S512x1024_S512x512_1_1_0_0_n_n

/-- The masked features of a block: the feature entry times the mask row's entry of the same column. -/
def blockFeat (v3 : FVec Ideal S1x512x1024 .f32) (v5 : FVec Ideal S1x1x1024 .f32) (t : Fin 512) (d : Fin 1024) : EReal :=
  v3 (ix3 (0 : Fin 1) t d) * v5 (ix3 (0 : Fin 1) (0 : Fin 1) d)

/-! ## The stages -/

/-- The masked block. -/
def masked (v3 : FVec Ideal S1x512x1024 .f32) (v5 : FVec Ideal S1x1x1024 .f32) : FVec Ideal S512x1024 .f32 :=
  mulf (shapeCast S512x1024 v3 shapeCasts_S1x512x1024_S512x1024)
    (broadcastTo S512x1024 (shapeCast S1x1024 v5 shapeCasts_S1x1x1024_S1x1024) broadcasts_S1x1024_S512x1024)

/-- The Gram matrix of a block, by the matrix unit. -/
def gramV (x : FVec Ideal S512x1024 .f32) : FVec Ideal S512x512 .f32 :=
  matmul dot_S512x1024_S512x1024_S512x512_1_1_0_0_n_n none (truncf .bf16 x bitsLt_bf16_f32) (truncf .bf16 x bitsLt_bf16_f32)
    (constant S512x512 .f32 0x00000000#32)

/-- The column of clamped row norms. -/
def normV (x : FVec Ideal S512x1024 .f32) : FVec Ideal S512x1 .f32 :=
  maximumf (sqrt (maximumf
      (shapeCast S512x1 (multiReduction .add [1] S512 (mulf x x) 0x00000000#32 reduces_S512x1024_S512 (.inl rfl) rfl) shapeCasts_S512_S512x1)
      (broadcast S512x1 (Scalar.ofBits .f32 0x00000000#32))))
    (broadcast S512x1 (Scalar.ofBits .f32 0x322BCC77#32))

/-- The similarities: the Gram matrix over the outer product of the norms. -/
def simV (x : FVec Ideal S512x1024 .f32) : FVec Ideal S512x512 .f32 :=
  divf (gramV x) (mulf (broadcastTo S512x512 (normV x) broadcasts_S512x1_S512x512)
    (broadcastTo S512x512 (transpose S1x512 [1, 0] (normV x) transposes_S512x1_p1_0_S1x512) broadcasts_S1x512_S512x512))

/-- The strict upper triangle of the similarities, the zero elsewhere. -/
def triV (x : FVec Ideal S512x1024 .f32) : FVec Ideal S512x512 .f32 :=
  select (cmpi .sgt (iota .tc S512x512 32 [1] iota_S512x512_d1_w32) (iota .tc S512x512 32 [0] iota_S512x512_d0_w32))
    (simV x) (broadcast S512x512 (Scalar.ofBits .f32 0x00000000#32))

/-- The block's total: the rows summed, then the column of row sums. -/
def totalV (x : FVec Ideal S512x1024 .f32) : FVec Ideal S1x1 .f32 :=
  shapeCast S1x1 (multiReduction .add [0] S1
      (shapeCast S512x1 (multiReduction .add [1] S512 (triV x) 0x00000000#32 reduces_S512x512_S512 (.inl rfl) rfl) shapeCasts_S512_S512x1)
      0x00000000#32 reduces_S512x1_S1 (.inl rfl) rfl) shapeCasts_S1_S1x1

/-- The accumulating store's payload is the accumulator plus the block's total. -/
theorem pay3_eq (v3 : FVec Ideal S1x512x1024 .f32) (v5 : FVec Ideal S1x1x1024 .f32) (v33 : FVec Ideal S1x1 .f32) :
    k0_pay3 (F := Ideal) v3 v5 v33 = shapeCast S1x1 (addf v33 (totalV (masked v3 v5))) shapeCasts_S1x1_S1x1 := rfl

/-! ## Each stage at an index -/

theorem masked_apply (v3 : FVec Ideal S1x512x1024 .f32) (v5 : FVec Ideal S1x1x1024 .f32) (t : Fin 512) (d : Fin 1024) :
    masked v3 v5 (ix2 t d) = blockFeat v3 v5 t d := by
  unfold masked blockFeat
  rw [mulf_apply, shapeCast_1ab_ab_apply, broadcastTo_1b_ab_apply, shapeCast_1ab_ab_apply]

theorem kd_lhs0 (i : S512x512.Idx) (q : KD.contr.Idx) : (KD.lhsIdx i q 0).val = (i 0).val := by
  unfold DotDims.lhsIdx
  rw [dif_neg (show ¬(0 : Fin S512x1024.rank) ∈ KD.lhsBatch by decide),
    dif_pos (show (0 : Fin S512x1024.rank) ∈ KD.lhsNonContracting by decide)]
  rfl
theorem kd_lhs1 (i : S512x512.Idx) (q : KD.contr.Idx) : (KD.lhsIdx i q 1).val = (q ⟨0, by decide⟩).val :=
  KD.lhsIdx_val_of_single rfl i q
theorem kd_rhs0 (i : S512x512.Idx) (q : KD.contr.Idx) : (KD.rhsIdx i q 0).val = (i 1).val := by
  unfold DotDims.rhsIdx
  rw [dif_neg (show ¬(0 : Fin S512x1024.rank) ∈ KD.rhsBatch by decide),
    dif_pos (show (0 : Fin S512x1024.rank) ∈ KD.rhsNonContracting by decide)]
  rfl
theorem kd_rhs1 (i : S512x512.Idx) (q : KD.contr.Idx) : (KD.rhsIdx i q 1).val = (q ⟨0, by decide⟩).val :=
  KD.rhsIdx_val_of_single rfl i q

/-- The matrix product at (t, u): the sum over the columns of the products of rows t and u. -/
theorem gramV_apply (x : FVec Ideal S512x1024 .f32) (t u : Fin 512) :
    gramV x (ix2 t u) = ∑ d : Fin 1024, x (ix2 t d) * x (ix2 u d) := by
  unfold gramV
  simp only [matmul]
  rw [Ideal.matmul_constant_zero_apply, ← Equiv.sum_comp (ValueIdx.contrEquiv1 KD 1024 rfl rfl).symm]
  refine Finset.sum_congr rfl fun k _ => ?_
  have hk := ValueIdx.contrEquiv1_symm_val KD 1024 rfl rfl k
  have el : KD.lhsIdx (ix2 t u) ((ValueIdx.contrEquiv1 KD 1024 rfl rfl).symm k) = ix2 t k := funext fun a => Fin.ext (by
    match a with
    | ⟨0, _⟩ => exact kd_lhs0 _ _
    | ⟨1, _⟩ => exact (kd_lhs1 _ _).trans hk)
  have er : KD.rhsIdx (ix2 t u) ((ValueIdx.contrEquiv1 KD 1024 rfl rfl).symm k) = ix2 u k := funext fun a => Fin.ext (by
    match a with
    | ⟨0, _⟩ => exact kd_rhs0 _ _
    | ⟨1, _⟩ => exact (kd_rhs1 _ _).trans hk)
  rw [el, er]
  rfl

/-- A lane sum of a 512 × n matrix, viewed as a column, at row t: the sum over the row. -/
theorem rowsum_apply {n : ℕ} (y : FVec Ideal ⟨2, ![512, n]⟩ .f32) (h : (⟨2, ![512, n]⟩ : Shape).Reduces [1] S512)
    (hφ : FKind.Formats .f32) (hacc : (0x00000000#32 : BitVec 32) = FKind.add.neutral .f32 hφ) (t : Fin 512) (u : Fin 1) :
    shapeCast S512x1 (multiReduction .add [1] S512 y 0x00000000#32 h hφ hacc) shapeCasts_S512_S512x1 (ix2 t u)
      = ∑ d : Fin n, y (ix2 t d) := by
  refine (shapeCast_a_a1_apply _ shapeCasts_S512_S512x1 t u).trans ?_
  refine (Ideal.multiReduction_add_single y 0x00000000#32 h hφ hacc (ix1 t)).trans ?_
  refine Finset.sum_congr rfl fun d _ => congrArg y ?_
  funext a
  match a with
  | ⟨0, _⟩ => rfl
  | ⟨1, _⟩ => rfl

theorem normV_apply (x : FVec Ideal S512x1024 .f32) (t : Fin 512) (u : Fin 1) :
    normV x (ix2 t u) = max (Ideal.sqrt (max (∑ d : Fin 1024, x (ix2 t d) * x (ix2 t d)) z0)) eps := by
  unfold normV
  show max (Ideal.sqrt (max (shapeCast S512x1 _ shapeCasts_S512_S512x1 (ix2 t u)) z0)) eps = _
  rw [rowsum_apply (n := 1024) (mulf x x) reduces_S512x1024_S512 (.inl rfl) rfl t u]
  rfl

theorem simV_apply (x : FVec Ideal S512x1024 .f32) (t u : Fin 512) :
    simV x (ix2 t u) = Ideal.div (gramV x (ix2 t u)) (normV x (ix2 t (0 : Fin 1)) * normV x (ix2 u (0 : Fin 1))) := by
  unfold simV
  rw [divf_apply, mulf_apply, broadcastTo_a1_ab_apply, broadcastTo_1b_ab_apply, transpose_ix2_apply]

theorem triV_apply (x : FVec Ideal S512x1024 .f32) (t u : Fin 512) :
    triV x (ix2 t u) = Scalar.select (upper t u) (simV x (ix2 t u)) z0 := by
  unfold triV upper
  rw [select_apply]
  show Scalar.select (IntOp.cmpi .sgt (iota .tc S512x512 32 [1] iota_S512x512_d1_w32 (ix2 t u)) (iota .tc S512x512 32 [0] iota_S512x512_d0_w32 (ix2 t u))) _ _ = _
  rw [iota_single_apply, iota_single_apply]
  rfl

/-- One pair's entry of the triangle is the specification's term of the block's rows. -/
theorem triV_term (x : FVec Ideal S512x1024 .f32) (t u : Fin 512) :
    triV x (ix2 t u) = term (fun r d => x (ix2 r d)) t u := by
  rw [triV_apply, simV_apply, gramV_apply, normV_apply, normV_apply]
  rfl

/-- A sublane sum of a 512 × 1 column, viewed as a 1 × 1 block: the sum over the column. -/
theorem colsum_apply (y : FVec Ideal S512x1 .f32) (hφ : FKind.Formats .f32)
    (hacc : (0x00000000#32 : BitVec 32) = FKind.add.neutral .f32 hφ) (p q : Fin 1) :
    shapeCast S1x1 (multiReduction .add [0] S1 y 0x00000000#32 reduces_S512x1_S1 hφ hacc) shapeCasts_S1_S1x1 (ix2 p q)
      = ∑ t : Fin 512, y (ix2 t q) := by
  refine (shapeCast_a_1a_apply _ shapeCasts_S1_S1x1 p q).trans ?_
  refine (Ideal.multiReduction_add_single y 0x00000000#32 reduces_S512x1_S1 hφ hacc (ix1 q)).trans ?_
  refine Finset.sum_congr rfl fun t _ => congrArg y ?_
  funext a
  match a with
  | ⟨0, _⟩ => rfl
  | ⟨1, _⟩ => rfl

/-- The block's total is its pair sum. -/
theorem totalV_apply (x : FVec Ideal S512x1024 .f32) (p q : Fin 1) :
    totalV x (ix2 p q) = bsum (fun r d => x (ix2 r d)) := by
  unfold totalV bsum
  refine (colsum_apply _ (.inl rfl) rfl p q).trans ?_
  refine Finset.sum_congr rfl fun t _ => ?_
  refine (rowsum_apply (n := 512) (triV x) reduces_S512x512_S512 (.inl rfl) rfl t q).trans ?_
  exact Finset.sum_congr rfl fun u _ => triV_term x t u

/-! ## The three payloads at their one index -/

/-- The accumulating store: the accumulator plus the pair sum of the block's masked features. -/
theorem pay3_apply (v3 : FVec Ideal S1x512x1024 .f32) (v5 : FVec Ideal S1x1x1024 .f32) (v33 : FVec Ideal S1x1 .f32) (p q : Fin 1) :
    k0_pay3 (F := Ideal) v3 v5 v33 (ix2 p q) = v33 (ix2 p q) + bsum (blockFeat v3 v5) := by
  rw [pay3_eq, shapeCast_self, addf_apply, totalV_apply]
  refine congrArg (v33 (ix2 p q) + ·) (congrArg bsum ?_)
  funext r d
  exact masked_apply v3 v5 r d

/-- The reset store: the zero. -/
theorem pay2_apply (p q : Fin 1) : k0_pay2 (F := Ideal) (ix2 p q) = z0 := by
  unfold k0_pay2
  rw [shapeCast_self]
  rfl

/-- The final store: the loss of the accumulated total. -/
theorem pay1_apply (v41 : FVec Ideal S1x1 .f32) (p q : Fin 1) :
    k0_pay1 (F := Ideal) v41 (ix2 p q) = closing (v41 (ix2 p q)) := by
  unfold k0_pay1 closing
  show (Ideal.ofBits .f32 0x00000000#32 - Ideal.log (one - half * (Ideal.div (v41 (ix2 p q)) cnt + one))) * beta = _
  rw [Ideal.ofBits_zero_f32, zero_sub]

end Cert.CosSim.Payload

end
-- ==== Proof.Blocks.lean ====
/-
  The blocks the pipeline hands the body at grid point t, read in the argument arrays.

  The feature window's block at point t is slab t of the first argument: its entry (0, r, d) is x[t, r, d].
  The mask window's array is not an argument but what the two host operations before the call make of the
  second one — the boolean mask converted to a float (1 or 0) and given a unit middle axis —, so its block at
  point t has entry (0, 0, d) equal to the number mask[t, d]. Hence the masked features the body forms at
  point t are the specification's features of batch entry t.
-/
import proofs.«127571_j74423193305271_1_alg».proof.Proof.Gen.KernelIdeal.Frame
import proofs.«127571_j74423193305271_1_alg».proof.Proof.Payload
import Idealize.ShloMosaic.Lib.StableHlo.Run
import Idealize.ShloMosaic.Lib.Pipeline.Value
import Idealize.ShloMosaic.Lib.ValueIdx

noncomputable section

namespace Cert.CosSim.Blocks

open Cert.KernelIdeal Cert.KernelIdeal.Gen Idealize.ShloMosaic Idealize.ShloMosaic.TcCoe Idealize.ShloMosaic.ValueIdx
open Idealize.SL.Sem Idealize.ShloMosaic.StableHlo Cert.CosSim Cert.CosSim.Payload

variable (m : (ℓ : Loc nD τ sig) → Buf (Elt Ideal) ℓ)

/-- A grid point's number is below 32. -/
theorem lt32 (t : Fin cfg0.N) : t.val < 32 := lt_of_lt_of_eq t.isLt (show cfg0.N = 32 from N_0)

/-- The feature window's block index at point t is (t, 0, 0) … -/
theorem idx_w0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- … and so is the mask window's. -/
theorem idx_w1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The feature block's entry (0, r, d) at point t is the argument's entry (t, r, d). -/
theorem blk0_apply (c : Dev nD) (t : Fin cfg0.N) (r : Fin 512) (d : Fin 1024) :
    (iblk m c 0 t : Vec Ideal S1x512x1024 .f32) (ix3 (0 : Fin 1) r d)
      = m ((c : Thread nD τ).loc main_arg0) (ix3 (⟨t.val, lt32 t⟩ : Fin 32) r d) := by
  unfold iblk
  rw [View.read_apply]
  show V m c main_arg0 _ = _
  rw [V_main_arg0 m c]
  refine congrArg (m ((c : Thread nD τ).loc main_arg0)) ?_
  funext a
  apply Fin.ext
  match a with
  | ⟨0, _⟩ => show win0_0.index t 0 * 1 + 1 * 0 = t.val; rw [(idx_w0 t).1]; omega
  | ⟨1, _⟩ => show win0_0.index t 1 * 512 + 1 * r.val = r.val; rw [(idx_w0 t).2.1]; omega
  | ⟨2, _⟩ => show win0_0.index t 2 * 1024 + 1 * d.val = d.val; rw [(idx_w0 t).2.2]; omega

/-- What the region finds in the mask window's array: the boolean mask as a float, with a unit middle axis. -/
theorem V_mask (c : Dev nD) : (V m c main_v1 : S32x1x1024.Idx → EReal)
    = broadcastInDim S32x1x1024 ![0, 2] bcast_S32x1024_S32x1x1024_0_2
        (uitofp (F := Ideal) .f32 (m ((c : Thread nD τ).loc main_arg1))) := by
  show StableHlo.after hostOps0 (fun b => m (c, b)) (Proc.devRef .tc main_v1) = _
  after_results

/-- The mask block's entry (0, 0, d) at point t is the number mask[t, d]. -/
theorem blk1_apply (c : Dev nD) (t : Fin cfg0.N) (d : Fin 1024) :
    (iblk m c 1 t : Vec Ideal S1x1x1024 .f32) (ix3 (0 : Fin 1) (0 : Fin 1) d)
      = (((m ((c : Thread nD τ).loc main_arg1) (ix2 (⟨t.val, lt32 t⟩ : Fin 32) d)).toNat : ℝ) : EReal) := by
  unfold iblk
  rw [View.read_apply]
  show V m c main_v1 _ = _
  rw [V_mask m c]
  refine (broadcastInDim_apply _ bcast_S32x1024_S32x1x1024_0_2 _ _ (ix2 (⟨t.val, lt32 t⟩ : Fin 32) d) (fun a => ?_)).trans rfl
  match a with
  | ⟨0, _⟩ =>
    show t.val = if (32 : ℕ) = 1 then 0 else (win0_1.index t 0 * 1 + 1 * 0)
    rw [if_neg (by decide), (idx_w1 t).1]; omega
  | ⟨1, _⟩ =>
    show d.val = if (1024 : ℕ) = 1 then 0 else (win0_1.index t 2 * 1024 + 1 * d.val)
    rw [if_neg (by decide), (idx_w1 t).2.2]; omega

/-- The masked features the body forms at point t are those of batch entry t. -/
theorem blockFeat_eq (c : Dev nD) (t : Fin cfg0.N) :
    blockFeat (iblk m c 0 t) (iblk m c 1 t)
      = feat (m ((c : Thread nD τ).loc main_arg0)) (m ((c : Thread nD τ).loc main_arg1)) ⟨t.val, lt32 t⟩ := by
  funext r d
  unfold blockFeat feat
  rw [blk0_apply m c t r d, blk1_apply m c t d]

end Cert.CosSim.Blocks

end
-- ==== Proof.KernelValue.lean ====
/-
  The kernel's result, read off its run.

  The accumulator the body carries from grid point to grid point holds, after point n, the zero plus the pair
  sums of batch entries 0 … n added one at a time (induction on the point: the first point adds entry 0's
  sum to the reset zero, every later point adds its entry's sum to what the point before left). The output
  block is written once, at the last point, with the closing formula of the accumulator, and is written back
  to its 1 × 1 array there; the host then reshapes that array to a scalar. Since the running sum after the
  last of the 32 entries is the sum over all of them, the scalar is the specification's loss of the two
  argument arrays, which the run leaves unchanged.
-/
import proofs.«127571_j74423193305271_1_alg».proof.Proof.Gen.KernelIdeal.Frame
import proofs.«127571_j74423193305271_1_alg».proof.Proof.Pieces
import proofs.«127571_j74423193305271_1_alg».proof.Proof.Payload
import proofs.«127571_j74423193305271_1_alg».proof.Proof.Blocks
import Idealize.ShloMosaic.Lib.Pipeline.Value
import Idealize.ShloMosaic.Lib.StableHlo.Run

noncomputable section

open scoped BigOperators

namespace Cert.CosSim.KernelValue

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)
open Cert.CosSim Cert.CosSim.Payload Cert.CosSim.Pieces Cert.CosSim.Blocks

variable (m : (ℓ : Loc nD τ sig) → Buf (Elt Ideal) ℓ) (ρ : Dev nD → PrngReg)

/-- Batch entry n's pair sum, as a function of every natural number (the zero past the last entry). -/
def entry (c : Dev nD) (n : ℕ) : EReal :=
  if h : n < 32 then bsum (feat (m ((c : Thread nD τ).loc main_arg0)) (m ((c : Thread nD τ).loc main_arg1)) ⟨n, h⟩) else 0

/-- What the body adds at point t is entry t's pair sum. -/
theorem point_sum (c : Dev nD) (t : Fin cfg0.N) :
    bsum (blockFeat (iblk m c 0 t) (iblk m c 1 t)) = entry m c t.val := by
  rw [blockFeat_eq m c t]
  unfold entry
  rw [dif_pos (lt32 t)]

/-- The last grid point. -/
abbrev tLast : Fin cfg0.N := ⟨31, by rw [show cfg0.N = 32 from N_0]; decide⟩

/-- THE ACCUMULATOR after point n: the running sum of the entries up to n. -/
theorem acc_eq (c : Dev nD) : ∀ (n : ℕ) (h : n < cfg0.N) (p q : Fin 1),
    (outsAt0 m c n h).2 (ix2 p q) = running (entry m c) n
  | 0, h, p, q => by
    have e := outsAt0_A m c ⟨0, h⟩ rfl (by show ¬(0 % 32 = 31); decide)
    refine (congrFun (congrArg Prod.snd e) (ix2 p q)).trans ?_
    dsimp only
    refine (congrFun (scratch_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)) (ix2 p q)).trans ?_
    refine (pay3_apply (iblk m c 0 ⟨0, h⟩) (iblk m c 1 ⟨0, h⟩) (k0_pay2 (F := Ideal)) p q).trans ?_
    rw [pay2_apply, point_sum m c ⟨0, h⟩]
    rfl
  | n + 1, h, p, q => by
    have hN : cfg0.N = 32 := N_0
    have h0 : ¬(⟨n + 1, h⟩ : Fin cfg0.N).val % 32 = 0 := by dsimp only; omega
    have ih := acc_eq c n (Nat.lt_of_succ_lt h) p q
    by_cases h1 : (⟨n + 1, h⟩ : Fin cfg0.N).val % 32 = 31
    · have e := outsAt0_C m c ⟨n + 1, h⟩ h0 h1
      refine (congrFun (congrArg Prod.snd e) (ix2 p q)).trans ?_
      dsimp only
      refine (congrFun (scratch_C (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c n (Nat.lt_of_succ_lt h)).2) (ix2 p q)).trans ?_
      refine (pay3_apply (iblk m c 0 ⟨n + 1, h⟩) (iblk m c 1 ⟨n + 1, h⟩) (outsAt0 m c n (Nat.lt_of_succ_lt h)).2 p q).trans ?_
      rw [ih, point_sum m c ⟨n + 1, h⟩]
      rfl
    · have e := outsAt0_B m c ⟨n + 1, h⟩ h0 h1
      refine (congrFun (congrArg Prod.snd e) (ix2 p q)).trans ?_
      dsimp only
      refine (congrFun (scratch_B (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c n (Nat.lt_of_succ_lt h)).2) (ix2 p q)).trans ?_
      refine (pay3_apply (iblk m c 0 ⟨n + 1, h⟩) (iblk m c 1 ⟨n + 1, h⟩) (outsAt0 m c n (Nat.lt_of_succ_lt h)).2 p q).trans ?_
      rw [ih, point_sum m c ⟨n + 1, h⟩]
      rfl

/-- The loss, as the kernel's programs see the arguments on core c. -/
def lossOf (c : Dev nD) : EReal := loss (m ((c : Thread nD τ).loc main_arg0)) (m ((c : Thread nD τ).loc main_arg1))

/-- The running sum after the last entry, closed, is the loss. -/
theorem closing_running (c : Dev nD) : closing (running (entry m c) 31) = lossOf m c := by
  rw [running_last]
  unfold lossOf loss
  refine congrArg closing (Finset.sum_congr rfl fun b _ => ?_)
  unfold entry
  rw [dif_pos b.isLt]

/-- THE OUTPUT BLOCK after the last point: the loss, at its one index. -/
theorem out_last (c : Dev nD) (p q : Fin 1) : (outsAt0 m c tLast.val tLast.isLt).1 (ix2 p q) = lossOf m c := by
  have h30 : 30 < cfg0.N := by rw [show cfg0.N = 32 from N_0]; decide
  have e := outsAt0_C m c tLast (by decide) (by decide)
  refine (congrFun (congrArg Prod.fst e) (ix2 p q)).trans ?_
  dsimp only
  refine (congrFun (out_C (F := Ideal) c (grid0.coords tLast) (ms0_0 tLast) (hs0_0 tLast) (ms0_1 tLast) (hs0_1 tLast)
    (ms0_2 tLast) (hs0_2 tLast) scM0_0 (Memref.isWhole_whole _) _ _ (iblk m c 0 tLast) (iblk m c 1 tLast)
    (outsAt0 m c 30 h30).2) (ix2 p q)).trans ?_
  refine (pay1_apply _ p q).trans ?_
  rw [pay3_apply (iblk m c 0 tLast) (iblk m c 1 tLast) (outsAt0 m c 30 h30).2 p q, acc_eq m c 30 h30 p q, point_sum m c tLast]
  exact closing_running m c

/-- The output block after the last point, as a constant function. -/
theorem out_last_fn (c : Dev nD) : (outsAt0 m c tLast.val tLast.isLt).1 = fun _ => lossOf m c := by
  funext y
  obtain ⟨p, q, rfl⟩ : ∃ (p q : Fin 1), y = ix2 p q := ⟨y 0, y 1, eq_ix2 y⟩
  exact out_last m c p q

/-- What the output array holds in the end. -/
abbrev finalArr (c : Dev nD) : Buf (Elt Ideal) ((c : Thread nD τ).loc main_v2) := fun _ => lossOf m c

/-- The one write-back, at the last point, writes the loss: the 1 × 1 block at offset (0, 0) is the array. -/
theorem flushed_eq (c : Dev nD) (t : Fin cfg0.N) (hf : (cfg0.win 2).flush t = true) :
    (dats m 0 c).flushed 2 t = ((cfg0.win 2).blk t).view.read (Elt Ideal) (finalArr m c) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last_fn]
  have hz' : (fun a => win0_2.index tLast a * main_v2.ty.shape.size a) = fun _ => 0 := funext fun a => by fin_cases a <;> decide
  exact (Memref.read_access_unit_zero (Elt Ideal) main_v2 hz' (fun a => by rw [congrFun hz' a]; simp) (finalArr m c)).symm

/-- So the output array ends holding the loss (the last point's block covers it). -/
theorem final2 (c : Dev nD) : (dats m 0 c).arrAt 2 cfg0.N = finalArr m c :=
  (dats m 0 c).arrAt_eq_of_cover 2 (finalArr m c) (flushed_eq m c) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]; omega⟩

/-- The host's reshape after the region reads the output array: the scalar result is the loss. -/
theorem tail_result (c : Dev nD) :
    Pipeline.afterTail₀ cfgs (dats m) 0 (V0 m) [hostOps1] c main_v3 = fun _ => lossOf m c := by
  unfold Pipeline.afterTail₀
  show StableHlo.after hostOps1 _ (Proc.devRef .tc main_v3) = _
  after_results
  rw [Pipeline.withArrays_arr spec0 launch0.win.arr_inj c _ _ 2, final2 m c]
  rfl

/-- THE RUN, READ: the result at the loss of the arguments, the arguments unchanged. -/
theorem run : θ_run defs (onTc (τ := τ) (main (F := Ideal))) ⟨m, fun _ => 0, ρ⟩ fun r => ∀ c : Dev nD,
      r.2.mem ((c.tc : Thread nD τ).loc main_v3) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.CosSim.KernelValue

end
-- ==== Proof.Diagonal.lean ====
/-
  The reference takes the row norms from the diagonal of the Gram array, which it extracts by a gather: for
  each row t an index pair (t, t) is built from two copies of the row numbers (each passed through "add 512
  if negative", which changes nothing since a row number is not negative), the two columns are joined, and
  entry (b, t) of the gather reads the operand at (b, pair[t, 0], pair[t, 1]) with both start indices read as
  signed integers and clamped into the axis. Both are t, so the gather at (b, t) is the operand at (b, t, t).
-/
import proofs.«127571_j74423193305271_1_alg».proof.Proof.Gen.ReferenceIdeal.Read
import Idealize.ShloMosaic.Lib.Pipeline.Value
import Idealize.ShloMosaic.Lib.ValueIdx

noncomputable section

namespace Cert.CosSim.Diagonal

open Cert.ReferenceIdeal Cert.ReferenceIdeal.Gen Cert.ReferenceIdeal.Read Idealize.ShloMosaic Idealize.ShloMosaic.ValueIdx

/-- The gather's dimension numbers: keep axis 0 whole, collapse axes 1 and 2, which the index pair addresses. -/
abbrev GD : GatherDims S32x512x512 S512x2 S32x512 := gather_S32x512x512_S512x2_S32x512_0_12_n_n_12_1_3211

/-- A row number's index word — "t + 512 if t is negative, else t" — read signed is t. -/
theorem diag_word : ∀ t : Fin 512,
    (Scalar.select (IntOp.cmpi .slt (BitVec.ofNat 32 t.val) 0#32) (IntOp.addi (BitVec.ofNat 32 t.val) 512#32)
      (BitVec.ofNat 32 t.val)).toInt.toNat = t.val := by
  decide +kernel

variable {F : FTy → Type} [FloatOps F] {α : Type}

/-- The first column of the index pair at row t. -/
theorem pair_left (t : Fin 512) :
    val_main_call0_v14 (F := F) (ix2 t (0 : Fin 2))
      = Scalar.select (IntOp.cmpi .slt (BitVec.ofNat 32 t.val) 0#32) (IntOp.addi (BitVec.ofNat 32 t.val) 512#32)
          (BitVec.ofNat 32 t.val) := by
  unfold val_main_call0_v14
  refine (concatenate_pair_apply_left (1 : Fin S512x2.rank) _ _ concatenates_S512x1_S512x1_S512x2_d1 (ix2 t (0 : Fin 2)) rfl
    (ix2 t (0 : Fin 1)) (fun b => ?_)).trans ?_
  · match b with
    | ⟨0, _⟩ => rfl
    | ⟨1, _⟩ => rfl
  · rfl

/-- The second column of the index pair at row t. -/
theorem pair_right (t : Fin 512) :
    val_main_call0_v14 (F := F) (ix2 t (1 : Fin 2))
      = Scalar.select (IntOp.cmpi .slt (BitVec.ofNat 32 t.val) 0#32) (IntOp.addi (BitVec.ofNat 32 t.val) 512#32)
          (BitVec.ofNat 32 t.val) := by
  unfold val_main_call0_v14
  refine (concatenate_pair_apply_right (1 : Fin S512x2.rank) _ _ concatenates_S512x1_S512x1_S512x2_d1 (ix2 t (1 : Fin 2)) rfl rfl
    (ix2 t (0 : Fin 1)) (fun b hb => ?_) rfl).trans ?_
  · match b with
    | ⟨0, _⟩ => rfl
    | ⟨1, _⟩ => exact absurd rfl hb
  · rfl

/-- On the kept axis the gather's operand index is the result's first coordinate. -/
theorem coord0 (idx : IVec S512x2 32) (b : Fin 32) (t : Fin 512) :
    GD.start (ix2 b t) idx (0 : Fin S32x512x512.rank) + GD.batchCoord (ix2 b t) (0 : Fin S32x512x512.rank)
      + GD.offCoord (ix2 b t) (0 : Fin S32x512x512.rank) = b.val := by
  rw [GatherDims.batchCoord_eq_zero _ _ _ List.not_mem_nil]
  unfold GatherDims.start GatherDims.offCoord
  rw [dif_neg (by decide), dif_pos (by decide)]
  show 0 + 0 + b.val = b.val
  omega

/-- On the first collapsed axis it is the pair's first entry at row t, read signed and clamped. -/
theorem coord1 (idx : IVec S512x2 32) (b : Fin 32) (t : Fin 512) (h0 : (idx (ix2 t (0 : Fin 2))).toInt.toNat = t.val) :
    GD.start (ix2 b t) idx (1 : Fin S32x512x512.rank) + GD.batchCoord (ix2 b t) (1 : Fin S32x512x512.rank)
      + GD.offCoord (ix2 b t) (1 : Fin S32x512x512.rank) = t.val := by
  rw [GatherDims.batchCoord_eq_zero _ _ _ List.not_mem_nil, GatherDims.offCoord_eq_zero _ _ _ (by decide)]
  unfold GatherDims.start
  rw [dif_pos (by decide)]
  have hsi : GD.siIdx (ix2 b t) ⟨List.idxOf (1 : Fin S32x512x512.rank) GD.startIndexMap, by decide⟩ = ix2 t (0 : Fin 2) := by
    funext c; refine Fin.ext ?_
    match c with
    | ⟨0, _⟩ => rfl
    | ⟨1, _⟩ => rfl
  rw [hsi, h0]
  show min t.val (512 - 1) + 0 + 0 = t.val
  have := t.isLt; omega

/-- On the second collapsed axis it is the pair's second entry at row t, read signed and clamped. -/
theorem coord2 (idx : IVec S512x2 32) (b : Fin 32) (t : Fin 512) (h1 : (idx (ix2 t (1 : Fin 2))).toInt.toNat = t.val) :
    GD.start (ix2 b t) idx (2 : Fin S32x512x512.rank) + GD.batchCoord (ix2 b t) (2 : Fin S32x512x512.rank)
      + GD.offCoord (ix2 b t) (2 : Fin S32x512x512.rank) = t.val := by
  rw [GatherDims.batchCoord_eq_zero _ _ _ List.not_mem_nil, GatherDims.offCoord_eq_zero _ _ _ (by decide)]
  unfold GatherDims.start
  rw [dif_pos (by decide)]
  have hsi : GD.siIdx (ix2 b t) ⟨List.idxOf (2 : Fin S32x512x512.rank) GD.startIndexMap, by decide⟩ = ix2 t (1 : Fin 2) := by
    funext c; refine Fin.ext ?_
    match c with
    | ⟨0, _⟩ => rfl
    | ⟨1, _⟩ => rfl
  rw [hsi, h1]
  show min t.val (512 - 1) + 0 + 0 = t.val
  have := t.isLt; omega

/-- The gather at (b, t), for an index pair whose two entries at row t read as t: the operand at (b, t, t). -/
theorem gather_diag (x : S32x512x512.Idx → α) (idx : IVec S512x2 32) (b : Fin 32) (t : Fin 512)
    (h0 : (idx (ix2 t (0 : Fin 2))).toInt.toNat = t.val) (h1 : (idx (ix2 t (1 : Fin 2))).toInt.toNat = t.val) :
    Host.gather GD x idx (ix2 b t) = x (ix3 b t t) := by
  unfold Host.gather
  refine congrArg x ?_
  funext a
  refine Fin.ext ?_
  match a with
  | ⟨0, _⟩ => exact coord0 idx b t
  | ⟨1, _⟩ => exact coord1 idx b t h0
  | ⟨2, _⟩ => exact coord2 idx b t h1

/-- The reference's diagonal stage at (b, t) is its Gram stage at (b, t, t). -/
theorem diag_apply (x0 : (⟨S32x512x1024, .f32⟩ : BufTy).Contents (Elt F)) (x1 : (⟨S32x1024, .i1⟩ : BufTy).Contents (Elt F))
    (b : Fin 32) (t : Fin 512) :
    val_main_v5 (F := F) x0 x1 (ix2 b t) = val_main_v4 (F := F) x0 x1 (ix3 b t t) := by
  unfold val_main_v5
  exact gather_diag _ _ b t ((congrArg (fun w : BitVec 32 => w.toInt.toNat) (pair_left (F := F) t)).trans (diag_word t))
    ((congrArg (fun w : BitVec 32 => w.toInt.toNat) (pair_right (F := F) t)).trans (diag_word t))

end Cert.CosSim.Diagonal

end
-- ==== Proof.RefValue.lean ====
/-
  The reference computes the same function.

  Stage by stage: the masked features are x[b, t, d] · mask[b, d]; the batched dot product is their Gram
  matrix per batch entry; the "diagonal" gather reads that array at (b, t, t); the norms are its square roots
  with the two clamps; the quotient divides the Gram entry by the product of the two norms; the triangle mask
  "not (t + 0 ≥ u)" is the word of "u > t" for every pair of 32-bit words, because signed ≤ is the negation of
  the reversed signed <; the reduction over all three axes starts from the zero, the additive unit, and is the
  triple sum over the coordinates; the scalar tail is the closing formula, the negation written as such.
-/
import proofs.«127571_j74423193305271_1_alg».proof.Proof.Gen.ReferenceIdeal.Read
import proofs.«127571_j74423193305271_1_alg».proof.Proof.Diagonal
import proofs.«127571_j74423193305271_1_alg».proof.Proof.Spec
import Idealize.ShloMosaic.Lib.ValueIdx
import Idealize.ShloMosaic.PureOps.Ideal.Laws

noncomputable section

open scoped BigOperators

namespace Cert.CosSim.RefValue

open Cert.ReferenceIdeal Cert.ReferenceIdeal.Gen Cert.ReferenceIdeal.Read Idealize.ShloMosaic Idealize.ShloMosaic.ValueIdx
open Cert.CosSim Cert.CosSim.Diagonal

/-- Selecting 0 on "not c" and 1 otherwise is the word of c. -/
theorem select_not (c : Bool) : (if BitVec.ofBool (!c) = 1 then (0#1) else (1#1)) = BitVec.ofBool c := by
  cases c <;> decide

/-- "not (t + 0 ≥ u)", selected as a one-bit word, is the word of "u > t": for all 32-bit words. -/
theorem upper_mask (T U : BitVec 32) :
    Scalar.select (IntOp.cmpi .sge (IntOp.addi T 0#32) U) (0#1) (1#1) = IntOp.cmpi .sgt U T := by
  have h0 : IntOp.addi T 0#32 = T := by unfold IntOp.addi; exact BitVec.add_zero T
  rw [h0]
  unfold IntOp.cmpi Scalar.select
  dsimp only
  rw [BitVec.sle_eq_not_slt]
  exact select_not (T.slt U)

variable (x0 : (⟨S32x512x1024, .f32⟩ : BufTy).Contents (Elt Ideal)) (x1 : (⟨S32x1024, .i1⟩ : BufTy).Contents (Elt Ideal))

/-- The masked features. -/
theorem masked_apply (b : Fin 32) (t : Fin 512) (d : Fin 1024) :
    val_main_v3 (F := Ideal) x0 x1 (ix3 b t d) = feat x0 x1 b t d := by
  rw [val_main_v3_apply, val_main_v2_apply, val_main_v1_apply, val_main_v0_apply]
  have e : idx_main_v0 (idx_main_v2 (ix3 b t d)) = ix2 b d := funext fun a => Fin.ext (by match a with | ⟨0, _⟩ => rfl | ⟨1, _⟩ => rfl)
  rw [e]
  rfl

/-- The batched dot product is the Gram matrix of each batch entry's masked features. -/
theorem gram_apply (b : Fin 32) (t u : Fin 512) :
    val_main_v4 (F := Ideal) x0 x1 (ix3 b t u) = gram (feat x0 x1 b) t u := by
  rw [val_main_v4_apply]
  unfold gram
  refine Finset.sum_congr rfl fun k _ => ?_
  have el : lidx_main_v4 (ix3 b t u) k = ix3 b t k := funext fun a => Fin.ext (by match a with | ⟨0, _⟩ => rfl | ⟨1, _⟩ => rfl | ⟨2, _⟩ => rfl)
  have er : ridx_main_v4 (ix3 b t u) k = ix3 b u k := funext fun a => Fin.ext (by match a with | ⟨0, _⟩ => rfl | ⟨1, _⟩ => rfl | ⟨2, _⟩ => rfl)
  rw [el, er, masked_apply, masked_apply]

/-- The clamped norms, from the Gram diagonal. -/
theorem norm_apply (b : Fin 32) (t : Fin 512) :
    val_main_v10 (F := Ideal) x0 x1 (ix2 b t) = nrm (feat x0 x1 b) t := by
  rw [val_main_v10_apply, val_main_v8_apply, val_main_v7_apply, diag_apply, gram_apply, val_main_v6_apply, val_main_cst_apply,
    val_main_v9_apply, val_main_cst_0_apply]
  rfl

/-- The triangle mask at (b, t, u): the word of "u > t". -/
theorem mask_apply (b : Fin 32) (t u : Fin 512) : val_main_call2_v1 (F := Ideal) (ix3 b t u) = upper t u := by
  rw [val_main_call2_v1_apply, val_main_v19_apply, val_main_v18_apply, val_main_call1_v4_apply, val_main_call1_v2_apply,
    val_main_call1_v0_apply, val_main_call1_v1_apply, val_main_call1_c_apply, val_main_call1_v3_apply, val_main_call1_v5_apply,
    val_main_call1_c_0_apply, val_main_v17_apply, val_main_c_apply]
  unfold upper
  exact upper_mask (BitVec.ofNat 32 t.val) (BitVec.ofNat 32 u.val)

/-- One pair's contribution. -/
theorem term_apply (b : Fin 32) (t u : Fin 512) :
    val_main_v20 (F := Ideal) x0 x1 (ix3 b t u) = term (feat x0 x1 b) t u := by
  rw [val_main_v20_apply, mask_apply, val_main_v16_apply, gram_apply, val_main_v15_apply, val_main_v13_apply, val_main_v11_apply,
    val_main_v14_apply, val_main_v12_apply]
  have e1 : idx_main_v11 (idx_main_v13 (ix3 b t u)) = ix2 b t := funext fun a => Fin.ext (by match a with | ⟨0, _⟩ => rfl | ⟨1, _⟩ => rfl)
  have e2 : idx_main_v12 (idx_main_v14 (ix3 b t u)) = ix2 b u := funext fun a => Fin.ext (by match a with | ⟨0, _⟩ => rfl | ⟨1, _⟩ => rfl)
  rw [e1, e2, norm_apply, norm_apply, val_main_call2_v2_apply, val_main_call2_v0_apply, val_main_cst_1_apply]
  rfl

/-- The reduction over all three axes: the sum over the batch entries of their pair sums. -/
theorem total_apply (i : S_.Idx) : val_main_v21 (F := Ideal) x0 x1 i = ∑ b : Fin 32, bsum (feat x0 x1 b) := by
  rw [val_main_v21_apply, val_main_cst_2_apply]
  show Ideal.ofBits .f32 0x00000000#32 + _ = _
  rw [Ideal.ofBits_zero_f32, zero_add]
  refine (sum_idx3 _).trans ?_
  unfold bsum
  exact Finset.sum_congr rfl fun b _ => Finset.sum_congr rfl fun t _ => Finset.sum_congr rfl fun u _ => term_apply x0 x1 b t u

/-- The result at its one index is the loss. -/
theorem result_apply (i : S_.Idx) : val_main_v28 (F := Ideal) x0 x1 i = loss x0 x1 := by
  rw [val_main_v28_apply, val_main_v27_apply, val_main_v26_apply, val_main_v25_apply, val_main_v24_apply, val_main_v23_apply,
    val_main_v22_apply, total_apply, val_main_cst_3_apply, val_main_cst_4_apply, val_main_cst_5_apply, val_main_cst_6_apply,
    val_main_cst_7_apply]
  rfl

/-- The result stage is the constant function at the loss. -/
theorem result_fn : val_main_v28 (F := Ideal) x0 x1 = fun _ => loss x0 x1 := funext (result_apply x0 x1)

end Cert.CosSim.RefValue

end
-- ==== Proof.lean ====
/-
  A Pallas kernel for a masked pairwise cosine-similarity loss against its jnp reference, equal over the
  extended reals.

  Both programs take features x : f32[32, 512, 1024] and a boolean mask : [32, 1024]. With X_b[t, d] =
  x[b, t, d] · mask[b, d] they form, per batch entry b, the Gram matrix X_b X_bᵀ, the row norms
  n_b[t] = max (√(max (‖X_b[t]‖², 0)), ε), the similarities G_b[t, u] / (n_b[t] · n_b[u]) on the strict upper
  triangle u > t, their total T over all b, t, u, and the loss -log (1 - ½ (T / count + 1)) · β.

  The kernel walks the 32 batch entries as grid points, takes the squared norms from a row sum of X ∘ X where
  the reference reads the Gram diagonal (the same sum of the same products), sums each entry's triangle by
  rows and then by the column of row sums, and accumulates the entries one after another in a carried 1 × 1
  scratch block that starts from zero; at the last point it applies the closing formula. The reference sums
  all pairs of all entries in one reduction. On the extended reals + is commutative and associative with unit
  0, so the running sum is the sum, whatever the inputs: no finiteness of the inputs is used. Every float
  literal (ε, the count, ½, 1, β) is the same word in both programs and is never evaluated; only the zero word
  is, as the additive unit; and the kernel's "0 - log y" is the reference's "-(log y)".

  The kernel's value: Payload (the body's arithmetic at an index), Pieces (what each control case leaves),
  Blocks (the windows' blocks in the argument arrays), KernelValue (the induction over grid points, the
  write-back, the host reshape). The reference's value: Diagonal (the gather that reads the Gram diagonal),
  RefValue (stage by stage to the same function). Spec states that function once.
-/
import proofs.«127571_j74423193305271_1_alg».proof.Defs
import proofs.«127571_j74423193305271_1_alg».proof.Proof.Gen.Kernel
import proofs.«127571_j74423193305271_1_alg».proof.Proof.Gen.Kernel.Skeleton
import proofs.«127571_j74423193305271_1_alg».proof.Proof.Gen.Kernel.Launch
import proofs.«127571_j74423193305271_1_alg».proof.Proof.Gen.Kernel.Points
import proofs.«127571_j74423193305271_1_alg».proof.Proof.Gen.Kernel.Frame
import proofs.«127571_j74423193305271_1_alg».proof.Proof.Gen.KernelIdeal
import proofs.«127571_j74423193305271_1_alg».proof.Proof.Gen.KernelIdeal.Skeleton
import proofs.«127571_j74423193305271_1_alg».proof.Proof.Gen.KernelIdeal.Launch
import proofs.«127571_j74423193305271_1_alg».proof.Proof.Gen.KernelIdeal.Points
import proofs.«127571_j74423193305271_1_alg».proof.Proof.Gen.KernelIdeal.Frame
import proofs.«127571_j74423193305271_1_alg».proof.Proof.Gen.ReferenceIdeal
import proofs.«127571_j74423193305271_1_alg».proof.Proof.Gen.ReferenceIdeal.Run
import proofs.«127571_j74423193305271_1_alg».proof.Proof.Gen.ReferenceIdeal.Read
import proofs.«127571_j74423193305271_1_alg».proof.Proof.Gen.Pre_finite_inputs
import proofs.«127571_j74423193305271_1_alg».proof.Proof.KernelValue
import proofs.«127571_j74423193305271_1_alg».proof.Proof.RefValue
import Idealize.ShloMosaic.Adequacy
import Idealize.ShloMosaic.Init

noncomputable section

namespace Cert.Proof

open Idealize.ShloMosaic Idealize.SL.Sem

/-- The word-level kernel runs, faults nowhere, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From memories that agree on the two arguments, both programs end with the loss of those arguments. -/
theorem algebraic : Cert.algebraic_KernelIdeal_ReferenceIdeal := by
  intro m ρ m' ρ' _ hagree
  refine ⟨fun c => (fun _ => Cert.CosSim.KernelValue.lossOf m c), Cert.CosSim.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.CosSim.RefValue.result_fn, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
